-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x128 : Shape := ⟨3, ![4, 256, 128]⟩
abbrev S4x256x256x128 : Shape := ⟨4, ![4, 256, 256, 128]⟩
abbrev S128x128 : Shape := ⟨2, ![128, 128]⟩
abbrev S128 : Shape := ⟨1, ![128]⟩
abbrev S_ : Shape := ⟨0, ![]⟩

class Facts : Prop where
  bcast_S_S4x256x128 : S_.BroadcastsInDim S4x256x128 (![] : Fin 0 → Fin S4x256x128.rank)
  reducesTo_S4x256x128_S_d0_1_2 : S4x256x128.ReducesTo [0, 1, 2] S_
  h_S_ : 0 < S_.numel
  bcast_S_S4x256x256x128 : S_.BroadcastsInDim S4x256x256x128 (![] : Fin 0 → Fin S4x256x256x128.rank)
  reducesTo_S4x256x256x128_S_d0_1_2_3 : S4x256x256x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_arg6 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S4x256x128 .f32) (main_arg1 : FVec F S4x256x256x128 .f32) (main_arg2 : FVec F S128x128 .f32) (main_arg3 : FVec F S128 .f32) (main_arg4 : FVec F S128x128 .f32) (main_arg5 : FVec F S128 .f32) (main_arg6 : FVec F S128x128 .f32) : IVec S_ 1 :=
  let main_v0 : FVec F S4x256x128 .f32 := Host.absf main_arg0
  let main_cst : FVec F S_ .f32 := constant S_ .f32 0x7F800000#32
  let main_v1 : FVec F S4x256x128 .f32 := broadcastInDim S4x256x128 ![] bcast_S_S4x256x128 main_cst
  let main_v2 : IVec S4x256x128 1 := cmpf .olt main_v0 main_v1
  let main_c : IVec S_ 1 := constantI S_ 1 1#1
  let main_v3 : IVec S_ 1 := (fun x v => Host.reduce IntOp.andi x v reducesTo_S4x256x128_S_d0_1_2 h_S_) main_v2 main_c
  let main_v4 : FVec F S4x256x256x128 .f32 := Host.absf main_arg1
  let main_cst_0 : FVec F S_ .f32 := constant S_ .f32 0x7F800000#32
  let main_v5 : FVec F S4x256x256x128 .f32 := broadcastInDim S4x256x256x128 ![] bcast_S_S4x256x256x128 main_cst_0
  let main_v6 : IVec S4x256x256x128 1 := cmpf .olt main_v4 main_v5
  let main_c_1 : IVec S_ 1 := constantI S_ 1 1#1
  let main_v7 : IVec S_ 1 := (fun x v => Host.reduce IntOp.andi x v reducesTo_S4x256x256x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S4x256x128 : Shape := ⟨3, ![4, 256, 128]⟩
abbrev S4x256x256x128 : Shape := ⟨4, ![4, 256, 256, 128]⟩
abbrev S128x128 : Shape := ⟨2, ![128, 128]⟩
abbrev S128 : Shape := ⟨1, ![128]⟩
abbrev S1x128 : Shape := ⟨2, ![1, 128]⟩
abbrev S1x64x128 : Shape := ⟨3, ![1, 64, 128]⟩
abbrev S1x64x256x128 : Shape := ⟨4, ![1, 64, 256, 128]⟩
abbrev S64x256x128 : Shape := ⟨3, ![64, 256, 128]⟩
abbrev S64x128 : Shape := ⟨2, ![64, 128]⟩

abbrev nBuf : Space → Nat
  | .hbm => 10
  | .vmem => 11
  | .smem => 0
  | _ => 0

abbrev bufTy : (tb : Table) → Fin (tcTables nBuf tb) → BufTy
  | .hbm, ⟨0, _⟩ => ⟨S4x256x128, .f32⟩
  | .hbm, ⟨1, _⟩ => ⟨S4x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1x128, .f32⟩
  | .hbm, ⟨8, _⟩ => ⟨S1x128, .f32⟩
  | .hbm, ⟨9, _⟩ => ⟨S4x256x128, .f32⟩
  | .local _ .vmem, ⟨0, _⟩ => ⟨S1x64x128, .f32⟩
  | .local _ .vmem, ⟨1, _⟩ => ⟨S1x64x128, .f32⟩
  | .local _ .vmem, ⟨2, _⟩ => ⟨S1x64x256x128, .f32⟩
  | .local _ .vmem, ⟨3, _⟩ => ⟨S1x64x256x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x64x128, .f32⟩
  | .local _ .vmem, ⟨10, _⟩ => ⟨S1x64x128, .f32⟩
  | _, _ => ⟨S4x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S128_S1x128 : S128.ShapeCasts S1x128
  inb_S1x64x256x128_S1x64x256x128_0_0_0_0 : ∀ a, (![0, 0, 0, 0] : Fin 4 → Nat) a + S1x64x256x128.size a ≤ S1x64x256x128.size a
  h_S1x64x256x128 : 0 < S1x64x256x128.numel
  shapeCasts_S1x64x256x128_S64x256x128 : S1x64x256x128.ShapeCasts S64x256x128
  reduces_S64x256x128_S64x128 : S64x256x128.Reduces [1] S64x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x256x128.size a
  hwx0_0 : ∀ i : grid0.Coords, EltTy.bits .f32 = 32 ∨ (Rect.block (s := S4x256x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x256x128.size a ≤ S4x256x256x128.size a
  hwx0_1 : ∀ i : grid0.Coords, EltTy.bits .f32 = 32 ∨ (Rect.block (s := S4x256x256x128) S1x64x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x64x128.size a ≤ S4x256x128.size a
  hwx0_7 : ∀ i : grid0.Coords, EltTy.bits .f32 = 32 ∨ (Rect.block (s := S4x256x128) S1x64x128.size (cc0_transform_7 i) (hinb0_7 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x256x128 : Shape := ⟨3, ![4, 256, 128]⟩
abbrev S4x256x256x128 : Shape := ⟨4, ![4, 256, 256, 128]⟩
abbrev S128x128 : Shape := ⟨2, ![128, 128]⟩
abbrev S128 : Shape := ⟨1, ![128]⟩
abbrev S1x1x128 : Shape := ⟨3, ![1, 1, 128]⟩
abbrev S1x1x1x128 : Shape := ⟨4, ![1, 1, 1, 128]⟩
abbrev S4x256x1x128 : Shape := ⟨4, ![4, 256, 1, 128]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4x256x128, .f32⟩
  | .hbm, ⟨1, _⟩ => ⟨S4x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S4x256x128, .f32⟩
  | .hbm, ⟨8, _⟩ => ⟨S1x1x128, .f32⟩
  | .hbm, ⟨9, _⟩ => ⟨S4x256x128, .f32⟩
  | .hbm, ⟨10, _⟩ => ⟨S4x256x128, .f32⟩
  | .hbm, ⟨11, _⟩ => ⟨S4x256x256x128, .f32⟩
  | .hbm, ⟨12, _⟩ => ⟨S1x1x1x128, .f32⟩
  | .hbm, ⟨13, _⟩ => ⟨S4x256x256x128, .f32⟩
  | .hbm, ⟨14, _⟩ => ⟨S4x256x256x128, .f32⟩
  | .hbm, ⟨15, _⟩ => ⟨S4x256x1x128, .f32⟩
  | .hbm, ⟨16, _⟩ => ⟨S4x256x256x128, .f32⟩
  | .hbm, ⟨17, _⟩ => ⟨S4x256x256x128, .f32⟩
  | .hbm, ⟨18, _⟩ => ⟨S_, .f32⟩
  | .hbm, ⟨19, _⟩ => ⟨S4x256x128, .f32⟩
  | .hbm, ⟨20, _⟩ => ⟨S4x256x128, .f32⟩
  | _, _ => ⟨S4x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S4x256x128_0_1_2 : S1x1x128.BroadcastsInDim S4x256x128 (![0, 1, 2] : Fin 3 → Fin S4x256x128.rank)
  bcast_S128_S1x1x1x128_3 : S128.BroadcastsInDim S1x1x1x128 (![3] : Fin 1 → Fin S1x1x1x128.rank)
  bcast_S1x1x1x128_S4x256x256x128_0_1_2_3 : S1x1x1x128.BroadcastsInDim S4x256x256x128 (![0, 1, 2, 3] : Fin 4 → Fin S4x256x256x128.rank)
  bcast_S4x256x128_S4x256x1x128_0_1_3 : S4x256x128.BroadcastsInDim S4x256x1x128 (![0, 1, 3] : Fin 3 → Fin S4x256x1x128.rank)
  bcast_S4x256x1x128_S4x256x256x128_0_1_2_3 : S4x256x1x128.BroadcastsInDim S4x256x256x128 (![0, 1, 2, 3] : Fin 4 → Fin S4x256x256x128.rank)
  reducesTo_S4x256x256x128_S4x256x128_d2 : S4x256x256x128.ReducesTo [2] S4x256x128
  h_S_ : 0 < S_.numel
  dot_S4x256x128_S128x128_S4x256x128_2_1_01_0_n_n_wf : DotDims.WF S4x256x128 S128x128 S4x256x128 [2] [1] [0, 1] [0] [] []
  dot_S4x256x256x128_S128x128_S4x256x256x128_3_1_012_0_n_n_wf : DotDims.WF S4x256x256x128 S128x128 S4x256x256x128 [3] [1] [0, 1, 2] [0] [] []

variable [Facts₀]

def dot_S4x256x128_S128x128_S4x256x128_2_1_01_0_n_n : DotDims S4x256x128 S128x128 S4x256x128 where
  lhsContracting := [2]
  rhsContracting := [1]
  lhsNonContracting := [0, 1]
  rhsNonContracting := [0]
  lhsBatch := []
  rhsBatch := []
  wf := dot_S4x256x128_S128x128_S4x256x128_2_1_01_0_n_n_wf
def dot_S4x256x256x128_S128x128_S4x256x256x128_3_1_012_0_n_n : DotDims S4x256x256x128 S128x128 S4x256x256x128 where
  lhsContracting := [3]
  rhsContracting := [1]
  lhsNonContracting := [0, 1, 2]
  rhsNonContracting := [0]
  lhsBatch := []
  rhsBatch := []
  wf := dot_S4x256x256x128_S128x128_S4x256x256x128_3_1_012_0_n_n_wf

class Facts : Prop extends Facts₀ where

variable [Facts]
-- ==== Proof.Spec.lean ====
/-
  The layer as mathematics, with no program in sight. For atom features `x[b,i,·]`, pairwise distance features
  `D[b,i,j,·]`, and three linear maps (`Wc`, `bc` on atoms; `Wd`, `bd` on distances; `Wf` on the product), the output is

      out[b,i,o] = Σ_h Σ_j (atom b i h) · (dist b i j h) · Wf[o,h],
      atom b i h   = Σ_d x[b,i,d]·Wc[h,d] + bc[h],
      dist b i j h = Σ_d D[b,i,j,d]·Wd[h,d] + bd[h].

  Two arrangements of it are written here, index by index over the extended reals: `refAt` sums the product over the
  neighbours `j` (from a starting value `zero`), and `kerAt` first sums the distance features over `j` and then applies the
  distance map ONCE, the bias counted `n` times. Over the real numbers the two agree when `zero = 0` and `n` is the number
  of neighbours (`neighbour_sum_law`): the atom factor and the weights move across the sum over `j`, which is
  distributivity and so needs every factor FINITE; `ref_eq_ker` is that statement for arrays whose entries are reals. The
  last map `Wf` multiplies the same value on both sides and may be anything.
-/
import Idealize.ShloMosaic.PureOps.Ideal
import Idealize.ShloMosaic.Lib.ValueIdx

noncomputable section

namespace Cert.Layer

open Idealize.ShloMosaic Idealize.ShloMosaic.ValueIdx

/-- Atom features, `[batch, atom, feature]`. -/
abbrev SX : Shape := ⟨3, ![4, 256, 128]⟩
/-- Distance features, `[batch, atom, neighbour, feature]`. -/
abbrev SD : Shape := ⟨4, ![4, 256, 256, 128]⟩
/-- A weight matrix, `[out, in]`. -/
abbrev SW : Shape := ⟨2, ![128, 128]⟩
/-- A bias vector. -/
abbrev SB : Shape := ⟨1, ![128]⟩

/-- The coercion of the reals into the extended reals commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW THAT JOINS THE TWO ARRANGEMENTS, for one atom and one hidden feature: with a real atom factor `a`, real distance
    features `D j d`, real weights `W d` and a real bias `β`,
    `Σ_j a·(Σ_d D j d·W d + β) = a·(Σ_d (Σ_j D j d)·W d + β·n)` when `n` counts the neighbours `j`. -/
theorem neighbour_sum_law {J K : Type} [Fintype J] [Fintype K] (a β : ℝ) (D : J → K → ℝ) (W : K → ℝ) (n : ℝ)
    (hn : (Fintype.card J : ℝ) = n) :
    (0 : EReal) + ∑ j, (a : EReal) * ((∑ d, (D j d : EReal) * (W d : EReal)) + (β : EReal))
      = (a : EReal) * ((∑ d, (∑ j, (D j d : EReal)) * (W d : EReal)) + (β : EReal) * (n : EReal)) := by
  have real : (0 : ℝ) + ∑ j, a * ((∑ d, D j d * W d) + β) = a * ((∑ d, (∑ j, D j d) * W d) + β * n) := by
    rw [zero_add, ← Finset.mul_sum, Finset.sum_add_distrib, Finset.sum_const, Finset.card_univ, nsmul_eq_mul, hn,
      Finset.sum_comm]
    congr 2
    · exact Finset.sum_congr rfl fun d _ => (Finset.sum_mul _ _ _).symm
    · exact mul_comm _ _
  have h := congrArg (fun r : ℝ => (r : EReal)) real
  simpa only [EReal.coe_add, EReal.coe_mul, coe_sum, EReal.coe_zero] using h

variable (x : SX.Idx → EReal) (D : SD.Idx → EReal) (Wc : SW.Idx → EReal) (bc : SB.Idx → EReal)
  (Wd : SW.Idx → EReal) (bd : SB.Idx → EReal) (Wf : SW.Idx → EReal)

/-- The atom's hidden feature `h`: the first linear map applied to the atom's features. -/
def atomFeat (b : Fin 4) (i : Fin 256) (h : Fin 128) : EReal :=
  (∑ d : Fin 128, x (ix3 b i d) * Wc (ix2 h d)) + bc (ix1 h)

/-- THE REFERENCE'S ARRANGEMENT at `(b, i, o)`: per hidden feature the product of the atom's feature with each neighbour's
    distance feature, summed over the neighbours from `zero`, then the last linear map. -/
def refAt (zero : EReal) (b : Fin 4) (i : Fin 256) (o : Fin 128) : EReal :=
  ∑ h : Fin 128, (zero + ∑ j : Fin 256,
      atomFeat x Wc bc b i h * ((∑ d : Fin 128, D (ix4 b i j d) * Wd (ix2 h d)) + bd (ix1 h))) * Wf (ix2 o h)

/-- THE KERNEL'S ARRANGEMENT at `(b, i, o)`: the distance features summed over the neighbours first, the distance map
    applied once to that sum with its bias taken `n` times, the product with the atom's feature, then the last linear map. -/
def kerAt (n : EReal) (b : Fin 4) (i : Fin 256) (o : Fin 128) : EReal :=
  ∑ h : Fin 128, (atomFeat x Wc bc b i h *
      ((∑ d : Fin 128, (∑ j : Fin 256, D (ix4 b i j d)) * Wd (ix2 h d)) + bd (ix1 h) * n)) * Wf (ix2 o h)

/-- The reference's arrangement as one array. -/
def refArr (zero : EReal) : SX.Idx → EReal := fun i => refAt x D Wc bc Wd bd Wf zero (i 0) (i 1) (i 2)

/-- The kernel's arrangement as one array. -/
def kerArr (n : EReal) : SX.Idx → EReal := fun i => kerAt x D Wc bc Wd bd Wf n (i 0) (i 1) (i 2)

/-- When every entry of the atom features, the distance features, the first two weight matrices and their biases is a real
    number, the two arrangements agree at every index, the neighbours being 256: `neighbour_sum_law` under the sum over the
    hidden features. The last weight matrix is not asked to be finite. -/
theorem ref_eq_ker (hx : ∀ i, ∃ r : ℝ, x i = r) (hD : ∀ i, ∃ r : ℝ, D i = r) (hWc : ∀ i, ∃ r : ℝ, Wc i = r)
    (hbc : ∀ i, ∃ r : ℝ, bc i = r) (hWd : ∀ i, ∃ r : ℝ, Wd i = r) (hbd : ∀ i, ∃ r : ℝ, bd i = r) :
    refArr x D Wc bc Wd bd Wf 0 = kerArr x D Wc bc Wd bd Wf ((256 : ℝ) : EReal) := by
  choose xr hxr using hx
  choose Dr hDr using hD
  choose Wcr hWcr using hWc
  choose bcr hbcr using hbc
  choose Wdr hWdr using hWd
  choose bdr hbdr using hbd
  funext idx
  unfold refArr kerArr refAt kerAt
  refine Finset.sum_congr rfl fun h _ => congrArg (· * Wf (ix2 (idx 2) h)) ?_
  have ha : atomFeat x Wc bc (idx 0) (idx 1) h
      = (((∑ d : Fin 128, xr (ix3 (idx 0) (idx 1) d) * Wcr (ix2 h d)) + bcr (ix1 h) : ℝ) : EReal) := by
    unfold atomFeat
    simp only [hxr, hWcr, hbcr, EReal.coe_add, EReal.coe_mul, coe_sum]
  rw [ha]
  simp only [hDr, hWdr, hbdr]
  exact neighbour_sum_law _ (bdr (ix1 h)) (fun j d => Dr (ix4 (idx 0) (idx 1) j d)) (fun d => Wdr (ix2 h d)) 256
    (by simp)

end Cert.Layer

end
-- ==== Proof.Finite.lean ====
/-
  From the precondition to real numbers. The precondition says, array by array, that every entry `x` satisfies
  `|x| < +∞`, the seven answers joined by `and`. At the exact instance an entry is an extended real, `|x|` is
  `max x (-x)`, and the pattern `0x7F800000` is `+∞`; so `|x| < +∞` rules out both infinities and the entry is a real
  number. Read back here: a conjunction that is 1 has both sides 1, an all-reduction by `and` that is 1 met only 1s, and
  the element fact just described.
-/
import proofs.«133585_j74680891342857_2_alg».proof.Pre_finite_inputs
import Idealize.ShloMosaic.Lib.ReduceAll
import Idealize.ShloMosaic.Lib.ValueIdx
import Idealize.ShloMosaic.PureOps.Ideal

noncomputable section

namespace Cert.Layer.Finite

open Idealize.ShloMosaic Idealize.ShloMosaic.ValueIdx Cert.Pre_finite_inputs

/-- The pattern of positive infinity denotes `⊤`. -/
theorem inf_bits : Ideal.ofBits .f32 0x7F800000#32 = (⊤ : EReal) := by
  simp [Ideal.ofBits, Ideal.ieee]

/-- An extended real whose absolute value is below `+∞` is a real number. -/
theorem real_of_abs_lt_inf (x : EReal)
    (h : Ideal.cmp .olt (max x (-x)) (Ideal.ofBits .f32 0x7F800000#32) = 1#1) : ∃ r : ℝ, x = r := by
  rw [inf_bits] at h
  induction x using EReal.rec with
  | bot => simp [Ideal.cmp] at h
  | coe r => exact ⟨r, rfl⟩
  | top => simp [Ideal.cmp] at h

/-- The scalar result has one index. -/
instance : Subsingleton S_.Idx := ⟨fun a b => funext fun d => d.elim0⟩

/-- One array's `all(|a| < +∞)` being 1 makes every entry of `a` a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
      (constantI S_ 1 1#1) hr hu ix0 = 1#1) (i : s.Idx) : ∃ r : ℝ, a i = r :=
  real_of_abs_lt_inf (a i) (Host.reduce_andi_all _ _ hr hu ix0 e i)

variable [Cert.Pre_finite_inputs.Facts]

/-- THE PRECONDITION READ BACK: if `finite_inputs` of the seven argument arrays is 1, every entry of each of the first six
    is a real number (the seventh is finite too, and is not needed). -/
theorem reals_of_pre (a0 : FVec Ideal S4x256x128 .f32) (a1 : FVec Ideal S4x256x256x128 .f32) (a2 : FVec Ideal S128x128 .f32)
    (a3 : FVec Ideal S128 .f32) (a4 : FVec Ideal S128x128 .f32) (a5 : FVec Ideal S128 .f32) (a6 : FVec Ideal S128x128 .f32)
    (hpre : fn (F := Ideal) a0 a1 a2 a3 a4 a5 a6 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) ∧ (∀ i, ∃ r : ℝ, a5 i = r) := by
  have h := congrFun hpre ix0
  dsimp only [fn, fn_part1] at h
  obtain ⟨h, _⟩ := IntOp.andi_eq_one.mp h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨all_real a0 _ _ _ h0, all_real a1 _ _ _ h1, all_real a2 _ _ _ h2, all_real a3 _ _ _ h3,
    all_real a4 _ _ _ h4, all_real a5 _ _ _ h5⟩

end Cert.Layer.Finite

end
-- ==== Proof.RefValue.lean ====
/-
  The reference's result, read one operation at a time, is the reference's arrangement of the layer (`Cert.Layer.refArr`):
  at `(b, i, o)` the last contraction runs over the hidden features `h`; its left factor is the sum over the neighbours
  `j`, from the zero pattern, of the product of two broadcast terms — the atom's feature `Σ_d x[b,i,d]·Wc[h,d] + bc[h]`,
  constant in `j`, and the distance feature `Σ_d D[b,i,j,d]·Wd[h,d] + bd[h]` —; its right factor is `Wf[o,h]`. Every
  broadcast only forgets coordinates, so each composed index function is the index written by coordinates.
-/
import proofs.«133585_j74680891342857_2_alg».proof.Proof.Gen.ReferenceIdeal.Read
import proofs.«133585_j74680891342857_2_alg».proof.Proof.Spec

noncomputable section

namespace Cert.Layer.RefValue

open Idealize.ShloMosaic Idealize.ShloMosaic.ValueIdx Cert.ReferenceIdeal Cert.ReferenceIdeal.Read Cert.Layer

/-- The reference's last stage is the reference's arrangement, the neighbour sum starting from the zero pattern. -/
theorem stage_eq_refArr (x0 : (⟨S4x256x128, .f32⟩ : BufTy).Contents (Elt Ideal)) (x1 : (⟨S4x256x256x128, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) :
    val_main_v12 (F := Ideal) x0 x1 x2 x3 x4 x5 x6 = refArr x0 x1 x2 x3 x4 x5 x6 (Ideal.ofBits .f32 0x00000000#32) := by
  funext i
  obtain ⟨b, r, o, rfl⟩ : ∃ (b : Fin 4) (r : Fin 256) (o : Fin 128), i = ix3 b r o := ⟨i 0, i 1, i 2, eq_ix3 i⟩
  -- the composed index functions, at indices written by coordinates
  have e12l : ∀ h : Fin 128, lidx_main_v12 (ix3 b r o) h = ix3 b r h := fun h => funext fun a => Fin.ext (by
    match a with | ⟨0, _⟩ => rfl | ⟨1, _⟩ => rfl | ⟨2, _⟩ => rfl)
  have e12r : ∀ h : Fin 128, ridx_main_v12 (ix3 b r o) h = ix2 o h := fun h => funext fun a => Fin.ext (by
    match a with | ⟨0, _⟩ => rfl | ⟨1, _⟩ => rfl)
  have e11 : ∀ (h : Fin 128) (j : Fin 256), idx_main_v11 (ix3 b r h) j = ix4 b r j h := fun h j => funext fun a => Fin.ext (by
    match a with | ⟨0, _⟩ => rfl | ⟨1, _⟩ => rfl | ⟨2, _⟩ => rfl | ⟨3, _⟩ => rfl)
  have e9 : ∀ (h : Fin 128) (j : Fin 256), idx_main_v9 (ix4 b r j h) = ix4 b r (0 : Fin 1) h := fun h j => funext fun a => Fin.ext (by
    match a with | ⟨0, _⟩ => rfl | ⟨1, _⟩ => rfl | ⟨2, _⟩ => rfl | ⟨3, _⟩ => rfl)
  have e8 : ∀ h : Fin 128, idx_main_v8 (ix4 b r (0 : Fin 1) h) = ix3 b r h := fun h => funext fun a => Fin.ext (by
    match a with | ⟨0, _⟩ => rfl | ⟨1, _⟩ => rfl | ⟨2, _⟩ => rfl)
  have e2 : ∀ h : Fin 128, idx_main_v2 (ix3 b r h) = ix3 (0 : Fin 1) (0 : Fin 1) h := fun h => funext fun a => Fin.ext (by
    match a with | ⟨0, _⟩ => rfl | ⟨1, _⟩ => rfl | ⟨2, _⟩ => rfl)
  have e1 : ∀ h : Fin 128, idx_main_v1 (ix3 (0 : Fin 1) (0 : Fin 1) h) = ix1 h := fun h => funext fun a => Fin.ext (by
    match a with | ⟨0, _⟩ => rfl)
  have e0l : ∀ (h d : Fin 128), lidx_main_v0 (ix3 b r h) d = ix3 b r d := fun h d => funext fun a => Fin.ext (by
    match a with | ⟨0, _⟩ => rfl | ⟨1, _⟩ => rfl | ⟨2, _⟩ => rfl)
  have e0r : ∀ (h d : Fin 128), ridx_main_v0 (ix3 b r h) d = ix2 h d := fun h d => funext fun a => Fin.ext (by
    match a with | ⟨0, _⟩ => rfl | ⟨1, _⟩ => rfl)
  have e6 : ∀ (h : Fin 128) (j : Fin 256), idx_main_v6 (ix4 b r j h) = ix4 (0 : Fin 1) (0 : Fin 1) (0 : Fin 1) h := fun h j => funext fun a => Fin.ext (by
    match a with | ⟨0, _⟩ => rfl | ⟨1, _⟩ => rfl | ⟨2, _⟩ => rfl | ⟨3, _⟩ => rfl)
  have e5 : ∀ h : Fin 128, idx_main_v5 (ix4 (0 : Fin 1) (0 : Fin 1) (0 : Fin 1) h) = ix1 h := fun h => funext fun a => Fin.ext (by
    match a with | ⟨0, _⟩ => rfl)
  have e4l : ∀ (h : Fin 128) (j : Fin 256) (d : Fin 128), lidx_main_v4 (ix4 b r j h) d = ix4 b r j d := fun h j d => funext fun a => Fin.ext (by
    match a with | ⟨0, _⟩ => rfl | ⟨1, _⟩ => rfl | ⟨2, _⟩ => rfl | ⟨3, _⟩ => rfl)
  have e4r : ∀ (h : Fin 128) (j : Fin 256) (d : Fin 128), ridx_main_v4 (ix4 b r j h) d = ix2 h d := fun h j d => funext fun a => Fin.ext (by
    match a with | ⟨0, _⟩ => rfl | ⟨1, _⟩ => rfl)
  show _ = refAt x0 x1 x2 x3 x4 x5 x6 (Ideal.ofBits .f32 0x00000000#32) b r o
  unfold refAt atomFeat
  rw [val_main_v12_apply]
  refine Finset.sum_congr rfl fun h _ => ?_
  rw [e12l h, e12r h, val_main_v11_apply, val_main_cst_apply]
  refine congrArg (· * x6 (ix2 o h)) (congrArg (Ideal.ofBits .f32 0x00000000#32 + ·) (Finset.sum_congr rfl fun j _ => ?_))
  rw [e11 h j, val_main_v10_apply, val_main_v9_apply, e9 h j, val_main_v8_apply, e8 h, val_main_v3_apply, val_main_v0_apply,
    val_main_v2_apply, e2 h, val_main_v1_apply, e1 h, val_main_v7_apply, val_main_v4_apply, val_main_v6_apply, e6 h j,
    val_main_v5_apply, e5 h]
  simp only [e0l, e0r, e4l, e4r, Ideal.addf_def, Ideal.mulf_def]

end Cert.Layer.RefValue

end
-- ==== Proof.Payload.lean ====
/-
  What the kernel's body computes for one block of 64 atoms, index by index. From the block of distance features
  `P0[0,p,j,d]`, the block of atom features `P3[0,p,d]`, the three weight matrices `P1` (distances), `P4` (atoms), `P6`
  (last map), and the two bias rows `P2`, `P5`, the body takes the sum over the neighbours `j` (a sum along one axis),
  three matrix products against TRANSPOSED weights (so each reads `W[h,d]`, "out" index first), adds the biases — the
  distance bias multiplied by the count literal — and multiplies. At exact values a change of float format is the
  identity, a product into a zero accumulator is the plain sum over the contracted index, and each re-laying (dropping a
  leading unit axis, a row broadcast over the 64 atoms, a transpose) only renames coordinates.
-/
import proofs.«133585_j74680891342857_2_alg».proof.Proof.Gen.KernelIdeal.Skeleton
import Idealize.ShloMosaic.Lib.ValueIdx
import Idealize.ShloMosaic.Lib.ValueLayout
import Idealize.ShloMosaic.PureOps.Ideal.Laws

noncomputable section

namespace Cert.Layer.Payload

open Idealize.ShloMosaic Idealize.ShloMosaic.ValueIdx Cert.KernelIdeal Cert.KernelIdeal.Gen

/-- The body's one kind of matrix product: `[64,128] × [128,128]`, contracting the left's axis 1 with the right's axis 0. -/
abbrev DD : DotDims S64x128 S128x128 S64x128 := dot_S64x128_S128x128_S64x128_1_0_0_1_n_n

theorem lhs0 (i : S64x128.Idx) (q : DD.contr.Idx) : (DD.lhsIdx i q 0).val = (i 0).val := by
  unfold DotDims.lhsIdx
  rw [dif_neg (show ¬(0 : Fin S64x128.rank) ∈ DD.lhsBatch by decide), dif_pos (show (0 : Fin S64x128.rank) ∈ DD.lhsNonContracting by decide)]
  rfl
theorem lhs1 (i : S64x128.Idx) (q : DD.contr.Idx) : (DD.lhsIdx i q 1).val = (q ⟨0, by decide⟩).val :=
  DD.lhsIdx_val_of_single rfl i q
theorem rhs0 (i : S64x128.Idx) (q : DD.contr.Idx) : (DD.rhsIdx i q 0).val = (q ⟨0, by decide⟩).val :=
  DD.rhsIdx_val_of_single rfl i q
theorem rhs1 (i : S64x128.Idx) (q : DD.contr.Idx) : (DD.rhsIdx i q 1).val = (i 1).val := by
  unfold DotDims.rhsIdx
  rw [dif_neg (show ¬(1 : Fin S128x128.rank) ∈ DD.rhsBatch by decide), dif_pos (show (1 : Fin S128x128.rank) ∈ DD.rhsNonContracting by decide)]
  rfl

/-- The product into a zero accumulator at `(p, h)` is `Σ_k L[p,k]·R[k,h]`. -/
theorem matmul_at (L : FVec Ideal S64x128 .bf16) (R : FVec Ideal S128x128 .bf16) (p : Fin 64) (h : Fin 128) :
    matmul DD none L R (constant (F := Ideal) S64x128 .f32 0x00000000#32) (ix2 p h) = ∑ k : Fin 128, L (ix2 p k) * R (ix2 k h) := by
  refine (Ideal.matmul_constant_zero_apply DD none L R (ix2 p h)).trans ?_
  rw [← Equiv.sum_comp (contrEquiv1 DD 128 rfl rfl).symm]
  refine Finset.sum_congr rfl fun k _ => ?_
  have hk := contrEquiv1_symm_val DD 128 rfl rfl k
  have el : DD.lhsIdx (ix2 p h) ((contrEquiv1 DD 128 rfl rfl).symm k) = ix2 p k := funext fun a => Fin.ext (by
    match a with
    | ⟨0, _⟩ => exact lhs0 _ _
    | ⟨1, _⟩ => exact (lhs1 _ _).trans hk)
  have er : DD.rhsIdx (ix2 p h) ((contrEquiv1 DD 128 rfl rfl).symm k) = ix2 k h := funext fun a => Fin.ext (by
    match a with
    | ⟨0, _⟩ => exact (rhs0 _ _).trans hk
    | ⟨1, _⟩ => exact rhs1 _ _)
  rw [el, er]

/-- The sum along the neighbour axis at `(p, d)` is `Σ_j v[p,j,d]`. -/
theorem lane_sum (v : FVec Ideal S64x256x128 .f32) (hφ : FKind.Formats .f32)
    (hacc : (0x00000000#32 : BitVec 32) = 0x00000000#32) (p : Fin 64) (d : Fin 128) :
    multiReduction .add [1] S64x128 v 0x00000000#32 reduces_S64x256x128_S64x128 hφ hacc (ix2 p d)
      = ∑ j : Fin 256, v (ix3 p j d) := by
  refine (Ideal.multiReduction_add_single v 0x00000000#32 reduces_S64x256x128_S64x128 hφ hacc (ix2 p d)).trans ?_
  refine Finset.sum_congr rfl fun j _ => congrArg v (funext fun c => Fin.ext ?_)
  match c with | ⟨0, _⟩ => rfl | ⟨1, _⟩ => rfl | ⟨2, _⟩ => rfl

/-- A weight matrix, its format changed and then transposed, reads at `(a, b)` the matrix at `(b, a)`. -/
theorem weightT_at (X : FVec Ideal S128x128 .bf16) (a b : Fin 128) :
    transpose S128x128 [1, 0] X transposes_S128x128_p1_0_S128x128 (ix2 a b) = X (ix2 b a) :=
  transpose_ix2_apply (a := 128) (b := 128) X transposes_S128x128_p1_0_S128x128 a b

/-- THE BODY'S RESULT AT `(p, q)`: the sum over the hidden features `h` of (the atom's feature) · (the distance map of the
    neighbour-summed distance features, its bias times the count literal) · (the last map's weight `P6[q,h]`). -/
theorem pay_at (P0 : Vec Ideal S1x64x256x128 .f32) (P1 : Vec Ideal S128x128 .f32) (P2 : Vec Ideal S1x128 .f32)
    (P3 : Vec Ideal S1x64x128 .f32) (P4 : Vec Ideal S128x128 .f32) (P5 : Vec Ideal S1x128 .f32) (P6 : Vec Ideal S128x128 .f32)
    (p : Fin 64) (q : Fin 128) :
    k0_pay2 P0 P1 P2 P3 P4 P5 P6 (ix2 p q)
      = ∑ h : Fin 128, (((∑ d : Fin 128, P3 (ix3 (0 : Fin 1) p d) * P4 (ix2 h d)) + P5 (ix2 (0 : Fin 1) h))
          * ((∑ d : Fin 128, (∑ j : Fin 256, P0 (ix4 (0 : Fin 1) p j d)) * P1 (ix2 h d))
              + P2 (ix2 (0 : Fin 1) h) * Ideal.ofBits .f32 0x43800000#32)) * P6 (ix2 q h) := by
  dsimp only [k0_pay2]
  simp only [matmul_at, truncf_apply, transpose_ix2_apply, addf_apply, mulf_apply, broadcastTo_1b_ab_apply,
    shapeCast_self, broadcast_apply, shapeCast_1ab_ab_apply, Ideal.ofBits_def]
  refine Finset.sum_congr rfl fun h _ => ?_
  refine congrArg₂ (· * ·) (congrArg₂ (· * ·) (congrArg (· + P5 (ix2 (0 : Fin 1) h)) ?_)
    (congrArg (· + P2 (ix2 (0 : Fin 1) h) * Ideal.ofBits .f32 0x43800000#32) ?_)) (weightT_at _ h q)
  · exact Finset.sum_congr rfl fun d _ => congrArg (P3 (ix3 (0 : Fin 1) p d) * ·) (weightT_at _ d h)
  · exact Finset.sum_congr rfl fun d _ => congrArg₂ (· * ·)
      ((lane_sum _ _ _ p d).trans (Finset.sum_congr rfl fun j _ => shapeCast_1abc_abc_apply P0 _ p j d)) (weightT_at _ d h)

end Cert.Layer.Payload

end
-- ==== Proof.Blocks.lean ====
/-
  From blocks to the whole array. The grid has 4 × 4 points; point `(b, s)` owns the 64 atoms `64·s … 64·s + 63` of batch
  `b`: it reads that slab of the atom features and of the distance features (all 256 neighbours of each of its atoms), the
  three weight matrices whole, and the two biases through a host reshape `[128] → [1,128]`, and writes back the same
  slab of the output. So what a point writes back is the kernel's arrangement of the layer (`Cert.Layer.kerArr`)
  restricted to its slab: an entry of a block sits in the array at (block index × block size + its coordinate) on each
  axis, the input blocks' indices are the output block's on the two slab axes and zero elsewhere (decided over the 16
  points), and the body's result at a block coordinate is `Cert.Layer.Payload.pay_at`. The 16 slabs tile the array (the
  point that covers row `r` of batch `b` is `(b, r / 64)`), so the array ends holding the arrangement everywhere.
-/
import proofs.«133585_j74680891342857_2_alg».proof.Proof.Gen.KernelIdeal.Value
import proofs.«133585_j74680891342857_2_alg».proof.Proof.Spec
import proofs.«133585_j74680891342857_2_alg».proof.Proof.Payload
import Idealize.ShloMosaic.Lib.Pipeline.Value
import Idealize.ShloMosaic.Lib.ValueLayout
import Idealize.ShloMosaic.Lib.StableHlo.Run

noncomputable section

namespace Cert.Layer.Blocks

open Cert.KernelIdeal Cert.KernelIdeal.Gen Idealize.ShloMosaic Idealize.ShloMosaic.TcCoe Idealize.SL.Sem
open Idealize.ShloMosaic.ValueIdx Cert.Layer
open Idealize.ShloMosaic.Pipeline (Dat)

variable (m : (ℓ : Loc nD τ sig) → Buf (Elt Ideal) ℓ) (ρ : Dev nD → PrngReg)

/-- The kernel's arrangement of the layer over core `c`'s argument arrays, the bias counted by the kernel's literal. -/
abbrev kerOf (c : Dev nD) : S4x256x128.Idx → Elt Ideal .f32 :=
  kerArr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (Ideal.ofBits .f32 0x43800000#32)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the grid: the two slab inputs move with the output on the batch and atom axes
    and stay at block 0 on their other axes; the weights and biases stay at block 0; the output's block indices range over
    4 × 4 × 1. -/
theorem idx_facts : ∀ t : Fin cfg0.N,
    (win0_0.index t (0 : Fin 3) = win0_7.index t (0 : Fin 3) ∧ win0_0.index t (1 : Fin 3) = win0_7.index t (1 : Fin 3)
      ∧ win0_0.index t (2 : Fin 3) = 0)
    ∧ (win0_1.index t (0 : Fin 4) = win0_7.index t (0 : Fin 3) ∧ win0_1.index t (1 : Fin 4) = win0_7.index t (1 : Fin 3)
      ∧ win0_1.index t (2 : Fin 4) = 0 ∧ win0_1.index t (3 : Fin 4) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 3) ≤ 3 ∧ win0_7.index t (1 : Fin 3) ≤ 3 ∧ win0_7.index t (2 : Fin 3) = 0) :=
  (by decide +kernel : ∀ t : Fin grid0.N, _)

/-- Every slab is some point's. -/
theorem idx_onto : ∀ (q0 : Fin 4) (q1 : Fin 4), ∃ t : Fin cfg0.N, win0_7.index t = ![q0.val, q1.val, 0] :=
  (by decide +kernel : ∀ (q0 : Fin 4) (q1 : Fin 4), ∃ t : Fin grid0.N, win0_7.index t = ![q0.val, q1.val, 0])

/-! ## The two biases as the region finds them: a host reshape of the argument -/

/-- The atom bias row the region stages is the argument vector with a unit axis in front. -/
theorem V_atomBias (c : Dev nD) : (V m c main_call0_v0 : S1x128.Idx → Elt Ideal .f32)
    = shapeCast S1x128 (m ((c : Thread nD τ).loc main_arg3) : S128.Idx → Elt Ideal .f32) shapeCasts_S128_S1x128 := by
  dsimp only [Gen.V, Gen.hostOps0]; after_results; rfl

/-- The distance bias row the region stages is the argument vector with a unit axis in front. -/
theorem V_distBias (c : Dev nD) : (V m c main_call0_v1 : S1x128.Idx → Elt Ideal .f32)
    = shapeCast S1x128 (m ((c : Thread nD τ).loc main_arg5) : S128.Idx → Elt Ideal .f32) shapeCasts_S128_S1x128 := by
  dsimp only [Gen.V, Gen.hostOps0]; after_results; rfl

/-! ## Each input block at a block coordinate is the argument array at the array coordinate -/

section reads
variable (c : Dev nD) (t : Fin cfg0.N) (B : Fin 4) (I : Fin 256) (p : Fin 64)

/-- The atom-feature block: row `p` of the block is atom `I` of batch `B`. -/
theorem atoms_at (hB : B.val = win0_7.index t (0 : Fin 3)) (hI : I.val = win0_7.index t (1 : Fin 3) * 64 + p.val)
    (u : Fin 1) (d : Fin 128) :
    (iblk m c 0 t : Vec Ideal S1x64x128 .f32) (ix3 u p d)
      = (m ((c : Thread nD τ).loc main_arg0) : S4x256x128.Idx → Elt Ideal .f32) (ix3 B I d) := by
  obtain ⟨⟨e0, e1, e2⟩, -⟩ := idx_facts t
  unfold iblk
  rw [View.read_apply]
  show V m c main_arg0 _ = _
  rw [V_main_arg0]
  refine congrArg _ (funext fun a => Fin.ext ?_)
  have hu := u.isLt
  match a with
  | ⟨0, _⟩ => show win0_0.index t (0 : Fin 3) * 1 + 1 * u.val = B.val; omega
  | ⟨1, _⟩ => show win0_0.index t (1 : Fin 3) * 64 + 1 * p.val = I.val; omega
  | ⟨2, _⟩ => show win0_0.index t (2 : Fin 3) * 128 + 1 * d.val = d.val; omega

/-- The distance-feature block: row `p`, neighbour `j` of the block is atom `I`, neighbour `j` of batch `B`. -/
theorem dists_at (hB : B.val = win0_7.index t (0 : Fin 3)) (hI : I.val = win0_7.index t (1 : Fin 3) * 64 + p.val)
    (u : Fin 1) (j : Fin 256) (d : Fin 128) :
    (iblk m c 1 t : Vec Ideal S1x64x256x128 .f32) (ix4 u p j d)
      = (m ((c : Thread nD τ).loc main_arg1) : S4x256x256x128.Idx → Elt Ideal .f32) (ix4 B I j d) := by
  obtain ⟨-, ⟨e0, e1, e2, e3⟩, -⟩ := idx_facts t
  unfold iblk
  rw [View.read_apply]
  show V m c main_arg1 _ = _
  rw [V_main_arg1]
  refine congrArg _ (funext fun a => Fin.ext ?_)
  have hu := u.isLt
  match a with
  | ⟨0, _⟩ => show win0_1.index t (0 : Fin 4) * 1 + 1 * u.val = B.val; omega
  | ⟨1, _⟩ => show win0_1.index t (1 : Fin 4) * 64 + 1 * p.val = I.val; omega
  | ⟨2, _⟩ => show win0_1.index t (2 : Fin 4) * 256 + 1 * j.val = j.val; omega
  | ⟨3, _⟩ => show win0_1.index t (3 : Fin 4) * 128 + 1 * d.val = d.val; omega

end reads

section weights
variable (c : Dev nD) (t : Fin cfg0.N)

/-- The atom map's weights are staged whole. -/
theorem atomW_at (h d : Fin 128) : (iblk m c 2 t : Vec Ideal S128x128 .f32) (ix2 h d)
    = (m ((c : Thread nD τ).loc main_arg2) : S128x128.Idx → Elt Ideal .f32) (ix2 h d) := by
  obtain ⟨-, -, ⟨e0, e1⟩, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 128 + 1 * h.val = h.val; omega
  | ⟨1, _⟩ => show win0_2.index t (1 : Fin 2) * 128 + 1 * d.val = d.val; omega

/-- The distance map's weights are staged whole. -/
theorem distW_at (h d : Fin 128) : (iblk m c 4 t : Vec Ideal S128x128 .f32) (ix2 h d)
    = (m ((c : Thread nD τ).loc main_arg4) : S128x128.Idx → Elt Ideal .f32) (ix2 h d) := by
  obtain ⟨-, -, -, -, ⟨e0, e1⟩, -⟩ := idx_facts t
  unfold iblk
  rw [View.read_apply]
  show V m c main_arg4 _ = _
  rw [V_main_arg4]
  refine congrArg _ (funext fun a => Fin.ext ?_)
  match a with
  | ⟨0, _⟩ => show win0_4.index t (0 : Fin 2) * 128 + 1 * h.val = h.val; omega
  | ⟨1, _⟩ => show win0_4.index t (1 : Fin 2) * 128 + 1 * d.val = d.val; omega

/-- The last map's weights are staged whole. -/
theorem lastW_at (o h : Fin 128) : (iblk m c 6 t : Vec Ideal S128x128 .f32) (ix2 o h)
    = (m ((c : Thread nD τ).loc main_arg6) : S128x128.Idx → Elt Ideal .f32) (ix2 o h) := by
  obtain ⟨-, -, -, -, -, -, ⟨e0, e1⟩, -⟩ := idx_facts t
  unfold iblk
  rw [View.read_apply]
  show V m c main_arg6 _ = _
  rw [V_main_arg6]
  refine congrArg _ (funext fun a => Fin.ext ?_)
  match a with
  | ⟨0, _⟩ => show win0_6.index t (0 : Fin 2) * 128 + 1 * o.val = o.val; omega
  | ⟨1, _⟩ => show win0_6.index t (1 : Fin 2) * 128 + 1 * h.val = h.val; omega

/-- The atom bias row at `(0, h)` is the argument vector at `h`. -/
theorem atomBias_at (h : Fin 128) : (iblk m c 3 t : Vec Ideal S1x128 .f32) (ix2 (0 : Fin 1) h)
    = (m ((c : Thread nD τ).loc main_arg3) : S128.Idx → Elt Ideal .f32) (ix1 h) := by
  obtain ⟨-, -, -, ⟨e0, e1⟩, -⟩ := idx_facts t
  unfold iblk
  rw [View.read_apply]
  show V m c main_call0_v0 _ = _
  rw [V_atomBias]
  refine (congrArg _ (funext fun a => Fin.ext ?_)).trans (shapeCast_a_1a_apply _ shapeCasts_S128_S1x128 (0 : Fin 1) h)
  match a with
  | ⟨0, _⟩ => show win0_3.index t (0 : Fin 2) * 1 + 1 * 0 = 0; omega
  | ⟨1, _⟩ => show win0_3.index t (1 : Fin 2) * 128 + 1 * h.val = h.val; omega

/-- The distance bias row at `(0, h)` is the argument vector at `h`. -/
theorem distBias_at (h : Fin 128) : (iblk m c 5 t : Vec Ideal S1x128 .f32) (ix2 (0 : Fin 1) h)
    = (m ((c : Thread nD τ).loc main_arg5) : S128.Idx → Elt Ideal .f32) (ix1 h) := by
  obtain ⟨-, -, -, -, -, ⟨e0, e1⟩, -⟩ := idx_facts t
  unfold iblk
  rw [View.read_apply]
  show V m c main_call0_v1 _ = _
  rw [V_distBias]
  refine (congrArg _ (funext fun a => Fin.ext ?_)).trans (shapeCast_a_1a_apply _ shapeCasts_S128_S1x128 (0 : Fin 1) h)
  match a with
  | ⟨0, _⟩ => show win0_5.index t (0 : Fin 2) * 1 + 1 * 0 = 0; omega
  | ⟨1, _⟩ => show win0_5.index t (1 : Fin 2) * 128 + 1 * h.val = h.val; omega

end weights

/-! ## What a point writes back -/

/-- WHAT POINT `t` WRITES BACK is its slab of the kernel's arrangement. -/
theorem flushed_eq (c : Dev nD) (t : Fin cfg0.N) :
    (dats m 0 c).flushed 7 t = ((cfg0.win 7).blk t).view.read (Elt Ideal) (kerOf m c) := by
  rw [Cert.KernelIdeal.Value.flushed7]
  obtain ⟨-, -, -, -, -, -, -, ⟨b0, b1, b2⟩⟩ := idx_facts t
  refine funext fun (y : S1x64x128.Idx) => ?_
  obtain ⟨u, p, q, rfl⟩ : ∃ (u : Fin 1) (p : Fin 64) (q : Fin 128), y = ix3 u p q := ⟨y 0, y 1, y 2, eq_ix3 y⟩
  have hu := u.isLt
  have hp := p.isLt
  -- the array coordinates of block coordinate (u, p, q)
  let B : Fin 4 := ⟨win0_7.index t (0 : Fin 3), by omega⟩
  let I : Fin 256 := ⟨win0_7.index t (1 : Fin 3) * 64 + p.val, by omega⟩
  have eo : ((cfg0.win 7).blk t).view.emb (ix3 u p q) = ix3 B I q := funext fun a => Fin.ext (by
    match a with
    | ⟨0, _⟩ => show win0_7.index t (0 : Fin 3) * 1 + 1 * u.val = win0_7.index t (0 : Fin 3); omega
    | ⟨1, _⟩ => show win0_7.index t (1 : Fin 3) * 64 + 1 * p.val = win0_7.index t (1 : Fin 3) * 64 + p.val; omega
    | ⟨2, _⟩ => show win0_7.index t (2 : Fin 3) * 128 + 1 * q.val = q.val; omega)
  show out0_7 (iblk m c 0 t) (iblk m c 1 t) (iblk m c 2 t) (iblk m c 3 t) (iblk m c 4 t) (iblk m c 5 t) (iblk m c 6 t) (ix3 u p q)
    = kerOf m c (((cfg0.win 7).blk t).view.emb (ix3 u p q))
  rw [eo]
  unfold out0_7
  refine (Cert.KernelIdeal.Value.canon7_eq _ _ _ _ _ _ _ (ix3 u p q)).trans ?_
  show k0_pay2 _ _ _ _ _ _ _ (Cert.KernelIdeal.Value.ix7_0 (ix3 u p q)) = _
  have e7 : Cert.KernelIdeal.Value.ix7_0 (ix3 u p q) = ix2 p q := funext fun a => Fin.ext (by
    match a with | ⟨0, _⟩ => rfl | ⟨1, _⟩ => rfl)
  rw [e7]
  simp only [View.ld_unit_zero (S := S1x64x256x128) hz4, View.ld_unit_zero (S := S128x128) hz2,
    View.ld_unit_zero (S := S1x128) hz2, View.ld_unit_zero (S := S1x64x128) hz3]
  refine (Payload.pay_at (iblk m c 1 t) (iblk m c 4 t) (iblk m c 5 t) (iblk m c 0 t) (iblk m c 2 t) (iblk m c 3 t)
    (iblk m c 6 t) p q).trans ?_
  show _ = kerAt _ _ _ _ _ _ _ (Ideal.ofBits .f32 0x43800000#32) B I q
  unfold kerAt atomFeat
  refine Finset.sum_congr rfl fun h _ => ?_
  refine congrArg₂ (· * ·) (congrArg₂ (· * ·)
      (congrArg₂ (· + ·) (Finset.sum_congr rfl fun d _ => congrArg₂ (· * ·) (atoms_at m c t B I p rfl rfl (0 : Fin 1) d) (atomW_at m c t h d))
        (atomBias_at m c t h))
      (congrArg₂ (· + ·) (Finset.sum_congr rfl fun d _ => congrArg₂ (· * ·)
          (Finset.sum_congr rfl fun j _ => dists_at m c t B I p rfl rfl (0 : Fin 1) j d) (distW_at m c t h d))
        (congrArg (· * Ideal.ofBits .f32 0x43800000#32) (distBias_at m c t h))))
    (lastW_at m c t q h)

/-! ## The slabs tile the array -/

/-- An index of the array is in point `t`'s slab iff each coordinate is in the slab's range on its axis. -/
theorem mem_blk (t : Fin cfg0.N) (i : S4x256x128.Idx) :
    i ∈ ((cfg0.win 7).blk t).view.set ↔ ∀ a : Fin 3, win0_7.index t a * S1x64x128.size a ≤ (i a).val
      ∧ (i a).val < win0_7.index t a * S1x64x128.size a + S1x64x128.size a := by
  show i ∈ ((View.whole main_v0).slice (win0_7.rect t)).set ↔ _
  rw [View.set_slice_whole, Rect.mem_set_unit]
  exact Iff.rfl

/-- Every index of the array is in some point's slab: batch `i 0`, atoms `64·(i 1 / 64) …`. -/
theorem cover (i : S4x256x128.Idx) :
    ∃ t : Fin cfg0.N, (cfg0.win 7).flush t = true ∧ i ∈ ((cfg0.win 7).blk t).view.set := by
  have hi0 : (i 0).val < 4 := (i 0).isLt
  have hi1 : (i 1).val < 256 := (i 1).isLt
  have hi2 : (i 2).val < 128 := (i 2).isLt
  obtain ⟨t, ht⟩ := idx_onto ⟨(i 0).val, hi0⟩ ⟨(i 1).val / 64, by omega⟩
  have q0 : win0_7.index t (0 : Fin 3) = (i 0).val := congrFun ht 0
  have q1 : win0_7.index t (1 : Fin 3) = (i 1).val / 64 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 64 ≤ (i 1).val ∧ (i 1).val < win0_7.index t (1 : Fin 3) * 64 + 64; omega
  | ⟨2, _⟩ => show win0_7.index t (2 : Fin 3) * 128 ≤ (i 2).val ∧ (i 2).val < win0_7.index t (2 : Fin 3) * 128 + 128; omega

/-- THE OUTPUT ARRAY after the run is the kernel's arrangement of the layer over the argument arrays. -/
theorem final (c : Dev nD) : (dats m 0 c).arrAt 7 cfg0.N = kerOf m c :=
  (dats m 0 c).arrAt_eq_of_cover 7 (kerOf m c) (fun t _ => flushed_eq m c t) cover

/-- THE KERNEL'S RUN, READ: every weakly fair execution terminates with the result array at the kernel's arrangement of the
    layer over the argument arrays as launched, the arguments unchanged. -/
theorem run : θ_run defs (onTc (τ := τ) (main (F := Ideal))) ⟨m, fun _ => 0, ρ⟩ fun r => ∀ c : Dev nD,
      r.2.mem ((c : Thread nD τ).loc main_v0) = kerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.Layer.Blocks

end
-- ==== Proof.lean ====
/-
  The kernel and its reference compute one message-passing layer: for every atom `i` of every batch `b`,

      out[b,i,o] = Σ_h Σ_j (Σ_d x[b,i,d]·Wc[h,d] + bc[h]) · (Σ_d D[b,i,j,d]·Wd[h,d] + bd[h]) · Wf[o,h].

  The reference forms the product for every neighbour `j` and sums it; the kernel sums the distance features over the
  neighbours first, applies the distance map once with its bias taken 256 times (the number of neighbours, an exact
  float), multiplies by the atom's feature and applies the last map, 64 atoms of one batch per grid point. On finite
  inputs the two are the same real-number expression (`Cert.Layer.neighbour_sum_law`: the atom factor and the weights
  move across the sum over `j`); at exact values the kernel's changes of float format are the identity and each of its
  matrix products is the plain sum, so nothing else separates them.

  The pieces: `Proof/Spec.lean` states both arrangements and the law; `Proof/Finite.lean` reads the precondition back as
  "every entry is a real"; `Proof/RefValue.lean` shows the reference's result is the first arrangement;
  `Proof/Payload.lean` reads the kernel body at an index and `Proof/Blocks.lean` assembles the 16 blocks into the second
  arrangement. Here: the value of the count literal, the three frames (each program runs to the end and leaves its
  arguments alone), and the two runs side by side.
-/
import proofs.«133585_j74680891342857_2_alg».proof.Defs
import proofs.«133585_j74680891342857_2_alg».proof.Proof.Gen.Kernel
import proofs.«133585_j74680891342857_2_alg».proof.Proof.Gen.Kernel.Skeleton
import proofs.«133585_j74680891342857_2_alg».proof.Proof.Gen.Kernel.Launch
import proofs.«133585_j74680891342857_2_alg».proof.Proof.Gen.Kernel.Points
import proofs.«133585_j74680891342857_2_alg».proof.Proof.Gen.Kernel.Frame
import proofs.«133585_j74680891342857_2_alg».proof.Proof.Gen.KernelIdeal
import proofs.«133585_j74680891342857_2_alg».proof.Proof.Gen.KernelIdeal.Skeleton
import proofs.«133585_j74680891342857_2_alg».proof.Proof.Gen.KernelIdeal.Launch
import proofs.«133585_j74680891342857_2_alg».proof.Proof.Gen.KernelIdeal.Points
import proofs.«133585_j74680891342857_2_alg».proof.Proof.Gen.KernelIdeal.Frame
import proofs.«133585_j74680891342857_2_alg».proof.Proof.Gen.ReferenceIdeal
import proofs.«133585_j74680891342857_2_alg».proof.Proof.Gen.Pre_finite_inputs
import proofs.«133585_j74680891342857_2_alg».proof.Proof.Gen.KernelIdeal.Value
import proofs.«133585_j74680891342857_2_alg».proof.Proof.Gen.ReferenceIdeal.Run
import proofs.«133585_j74680891342857_2_alg».proof.Proof.Gen.ReferenceIdeal.Read
import proofs.«133585_j74680891342857_2_alg».proof.Proof.Spec
import proofs.«133585_j74680891342857_2_alg».proof.Proof.Finite
import proofs.«133585_j74680891342857_2_alg».proof.Proof.RefValue
import proofs.«133585_j74680891342857_2_alg».proof.Proof.Blocks
import Idealize.ShloMosaic.Adequacy
import Idealize.ShloMosaic.Init

noncomputable section

namespace Cert.Proof

open Idealize.ShloMosaic Idealize.SL.Sem

/-- The kernel's count literal `256.0` (sign 0, exponent 135, significand 0: `2^8`) denotes the real 256. -/
theorem count_bits : Ideal.ofBits .f32 0x43800000#32 = ((256 : ℝ) : EReal) := by
  simp [Ideal.ofBits, Ideal.ieee, -EReal.coe_mul]; norm_num

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the kernel's arrangement of the layer over the (shared) arguments: the
    kernel by its blocks, the reference because its own arrangement equals that one on real entries, which the precondition
    gives; the reference's zero pattern is 0 and the kernel's count literal is 256. -/
theorem algebraic : Cert.algebraic_KernelIdeal_ReferenceIdeal := by
  intro m ρ m' ρ' hpre hagree
  refine ⟨fun c => Cert.Layer.Blocks.kerOf m c, Cert.Layer.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := Cert.Layer.Finite.reals_of_pre _ _ _ _ _ _ _ (hpre c)
  rw [Cert.ReferenceIdeal.Read.val_main_v12_eq, Cert.Layer.RefValue.stage_eq_refArr, (hagree c).1, (hagree c).2.1,
    (hagree c).2.2.1, (hagree c).2.2.2.1, (hagree c).2.2.2.2.1, (hagree c).2.2.2.2.2.1, (hagree c).2.2.2.2.2.2,
    Ideal.ofBits_zero_f32]
  show _ = Cert.Layer.kerArr _ _ _ _ _ _ _ (Ideal.ofBits .f32 0x43800000#32)
  rw [count_bits]
  exact Cert.Layer.ref_eq_ker _ _ _ _ _ _ _ h0 h1 h2 h3 h4 h5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
